-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S4x128x128 .f32) (main_arg3 : FVec F S4x128 .f32) (main_arg4 : FVec F S4x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩

abbrev nBuf : Space → Nat
  | .hbm => 114
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128x128, .f32⟩
  | .hbm, ⟨36, _⟩ => ⟨S128x128, .f32⟩
  | .hbm, ⟨37, _⟩ => ⟨S128x128, .f32⟩
  | .hbm, ⟨38, _⟩ => ⟨S1x128x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128x128, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S128x128, .f32⟩
  | .hbm, ⟨84, _⟩ => ⟨S1x128x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S1x128x128, .f32⟩
  | .hbm, ⟨105, _⟩ => ⟨S128x128, .f32⟩
  | .hbm, ⟨106, _⟩ => ⟨S128x128, .f32⟩
  | .hbm, ⟨107, _⟩ => ⟨S1x128x128, .f32⟩
  | .hbm, ⟨108, _⟩ => ⟨S128x128, .f32⟩
  | .hbm, ⟨109, _⟩ => ⟨S128x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_11 : Ref sig .tc := ⟨.hbm, 91, rfl⟩
abbrev main_v73 : Ref sig .tc := ⟨.hbm, 92, rfl⟩
abbrev main_v74 : Ref sig .tc := ⟨.hbm, 93, rfl⟩
abbrev main_c_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S1x128x128, .f32⟩
  | 38 => ⟨S128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128x128, .f32⟩
  | 47 => ⟨S128x128, .f32⟩
  | 48 => ⟨S128x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S1x128x128, .f32⟩
  | 70 => ⟨S128x128, .f32⟩
  | 71 => ⟨S128x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S1x128x128, .f32⟩
  | 79 => ⟨S128x128, .f32⟩
  | 80 => ⟨S128x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x128, .f32⟩
  | 100 => ⟨S100000x128, .f32⟩
  | 101 => ⟨S1x128x128, .f32⟩
  | 102 => ⟨S128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S1x128x128, .f32⟩
  | 111 => ⟨S128x128, .f32⟩
  | 112 => ⟨S128x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S100000x128, .f32⟩
  | 4 => ⟨S100000x128, .f32⟩
  | 5 => ⟨S1x128x128, .f32⟩
  | 6 => ⟨S128x128, .f32⟩
  | 7 => ⟨S128x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128x128, .f32⟩
  | 15 => ⟨S128x128, .f32⟩
  | 16 => ⟨S128x128, .f32⟩
  | 17 => ⟨S100000x128, .f32⟩
  | 18 => ⟨S100000x128, .f32⟩
  | 19 => ⟨S_, .f32⟩
  | 20 => ⟨S100000x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_cst : Ref sig .tc := ⟨.hbm, 51, rfl⟩
abbrev main_call0_v0 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call1_cst : Ref sig .tc := ⟨.hbm, 83, rfl⟩
abbrev main_call1_v0 : Ref sig .tc := ⟨.hbm, 84, rfl⟩
abbrev main_v66 : Ref sig .tc := ⟨.hbm, 85, rfl⟩
abbrev main_c_8 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_call2_cst : Ref sig .tc := ⟨.hbm, 115, rfl⟩
abbrev main_call2_v0 : Ref sig .tc := ⟨.hbm, 116, rfl⟩
abbrev main_v93 : Ref sig .tc := ⟨.hbm, 117, rfl⟩
abbrev main_c_11 : Ref sig .tc := ⟨.hbm, 118, rfl⟩
abbrev main_v94 : Ref sig .tc := ⟨.hbm, 119, rfl⟩
abbrev main_v95 : Ref sig .tc := ⟨.hbm, 120, rfl⟩
abbrev main_c_12 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_13 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_call3_cst : Ref sig .tc := ⟨.hbm, 147, rfl⟩
abbrev main_call3_v0 : Ref sig .tc := ⟨.hbm, 148, rfl⟩
abbrev main_v120 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named.

  The program is four tiled regions among stretches of whole-array operations. Its run is followed boundary by
  boundary: the buffer contents after each stretch are the stretch's operations applied to the contents before it, and
  after each region its arrays hold what the region's write-backs leave while every other buffer is as it was. Read at
  the end, every buffer holds the last boundary's contents; in particular the result buffer does, and the five
  argument buffers hold what they were launched with.
-/
import proofs.«181015_j31756988186713_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents there, and the argument buffers end as launched. -/
theorem run : θ_run defs (onTc (τ := τ) (main (F := F))) ⟨m, fun _ => 0, ρ⟩ (fun r => ∀ c : Dev nD,
      r.2.mem ((c.tc : Thread nD τ).loc main_v92) = W8 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v92 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LayerSpec.lean ====
/-
  One graph-convolution layer as a function of arrays, entry by entry, over the extended reals.

  For a node p and an output feature q the layer's value is
      max ( (sum over k of (A(p,k) * s(p)) * Wl(k,q)  +  sum over k of X(p,k) * Wr(k,q))  +  b(q) , 0 )
  where A is the array of summed neighbour features, s the per-node scale (the reciprocal of the clamped degree),
  X the node features, Wl and Wr the two weight matrices already transposed, and b the bias vector.

  Two spellings of this function are read here at an index. The tiled one multiplies a block of A by the scale column
  broadcast over the features, takes the two matrix products into zero accumulators, adds them, then adds the bias
  row broadcast over the nodes, and clamps at zero. The whole-array one scales A, takes the first product, adds the
  broadcast bias, then adds the second product, and clamps at zero. They differ only in the order in which the bias
  and the second product are added, and addition of extended reals is commutative and associative, so both are the
  function above: no finiteness of the entries is needed.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«181015_j31756988186713_2_alg».proof.Proof.LibPlainDot
import proofs.«181015_j31756988186713_2_alg».proof.Proof.LibColumnBroadcast

noncomputable section

namespace Cert.Sage

open Idealize.ShloMosaic Idealize.ShloMosaic.ValueIdx

/-- One entry of a layer from a row of the summed neighbour features, the same row of the node features, the row's
    scale, one column of each transposed weight matrix, and one bias. -/
def entry (a x : Fin 128 → EReal) (s : EReal) (wl wr : Fin 128 → EReal) (b : EReal) : EReal :=
  max ((∑ k : Fin 128, a k * s * wl k + ∑ k : Fin 128, x k * wr k) + b) 0

/-- The row coordinate of an index of an [n, m] array, typed by the extent itself. -/
abbrev rowOf {n m : Nat} (i : (⟨2, ![n, m]⟩ : Shape).Idx) : Fin n := ⟨(i 0).val, (i 0).isLt⟩
/-- The column coordinate of an index of an [n, m] array, typed by the extent itself. -/
abbrev colOf {n m : Nat} (i : (⟨2, ![n, m]⟩ : Shape).Idx) : Fin m := ⟨(i 1).val, (i 1).isLt⟩

/-- The layer over n nodes: every entry from its row of A and X, its scale, its columns of the weights, its bias. -/
def layer {n : Nat} (A X : (⟨2, ![n, 128]⟩ : Shape).Idx → EReal) (S : (⟨2, ![n, 1]⟩ : Shape).Idx → EReal)
    (Wl Wr : (⟨2, ![128, 128]⟩ : Shape).Idx → EReal) (b : Fin 128 → EReal) : (⟨2, ![n, 128]⟩ : Shape).Idx → EReal :=
  fun i => entry (fun k => A (ix2 (rowOf i) k)) (fun k => X (ix2 (rowOf i) k)) (S (ix2 (rowOf i) (0 : Fin 1)))
    (fun k => Wl (ix2 k (colOf i))) (fun k => Wr (ix2 k (colOf i))) (b (colOf i))

theorem layer_apply {n : Nat} (A X : (⟨2, ![n, 128]⟩ : Shape).Idx → EReal) (S : (⟨2, ![n, 1]⟩ : Shape).Idx → EReal)
    (Wl Wr : (⟨2, ![128, 128]⟩ : Shape).Idx → EReal) (b : Fin 128 → EReal) (p : Fin n) (q : Fin 128) :
    layer A X S Wl Wr b (ix2 p q)
      = entry (fun k => A (ix2 p k)) (fun k => X (ix2 p k)) (S (ix2 p (0 : Fin 1)))
          (fun k => Wl (ix2 k q)) (fun k => Wr (ix2 k q)) (b q) := rfl

/-- THE TILED SPELLING: a block of n nodes through the kernel body's operations is the layer of the block. The matrix
    products are plain ones (contracting the left operand's second axis with the right operand's first), each into a
    zero accumulator; the narrowing of the operands' format is the identity on extended reals. -/
theorem tiled_eq {n : Nat}
    (wf : DotDims.WF ⟨2, ![n, 128]⟩ ⟨2, ![128, 128]⟩ ⟨2, ![n, 128]⟩ [1] [0] [0] [1] [] [])
    (d : DotDims ⟨2, ![n, 128]⟩ ⟨2, ![128, 128]⟩ ⟨2, ![n, 128]⟩) (hd : d = Cert.Lib.plainDot n 128 128 wf)
    (hA : (⟨2, ![n, 128]⟩ : Shape).ShapeCasts ⟨2, ![n, 128]⟩) (hS : (⟨2, ![n, 1]⟩ : Shape).ShapeCasts ⟨2, ![n, 1]⟩)
    (hSb : (⟨2, ![n, 1]⟩ : Shape).Broadcasts ⟨2, ![n, 128]⟩)
    (hW : (⟨2, ![128, 128]⟩ : Shape).ShapeCasts ⟨2, ![128, 128]⟩)
    (hB : (⟨2, ![1, 128]⟩ : Shape).ShapeCasts ⟨2, ![1, 128]⟩) (hBb : (⟨2, ![1, 128]⟩ : Shape).Broadcasts ⟨2, ![n, 128]⟩)
    (hlt : FTy.bf16.bits < FTy.f32.bits)
    (x0 : FVec Ideal ⟨2, ![n, 128]⟩ .f32) (x1 : FVec Ideal ⟨2, ![n, 1]⟩ .f32) (x2 : FVec Ideal ⟨2, ![n, 128]⟩ .f32)
    (x3 x4 : FVec Ideal ⟨2, ![128, 128]⟩ .f32) (x5 : FVec Ideal ⟨2, ![1, 128]⟩ .f32) :
    maximumf
        (addf
          (addf
            (matmul d none
              (truncf .bf16 (mulf (shapeCast ⟨2, ![n, 128]⟩ x0 hA) (broadcastTo ⟨2, ![n, 128]⟩ (shapeCast ⟨2, ![n, 1]⟩ x1 hS) hSb)) hlt)
              (truncf .bf16 (shapeCast ⟨2, ![128, 128]⟩ x3 hW) hlt) (constant ⟨2, ![n, 128]⟩ .f32 0x00000000#32))
            (matmul d none (truncf .bf16 x2 hlt) (truncf .bf16 (shapeCast ⟨2, ![128, 128]⟩ x4 hW) hlt)
              (constant ⟨2, ![n, 128]⟩ .f32 0x00000000#32)))
          (broadcastTo ⟨2, ![n, 128]⟩ (shapeCast ⟨2, ![1, 128]⟩ x5 hB) hBb))
        (broadcast ⟨2, ![n, 128]⟩ (Scalar.ofBits (F := Ideal) .f32 0x00000000#32))
      = layer x0 x2 x1 x3 x4 (fun q => x5 (ix2 (0 : Fin 1) q)) := by
  subst hd
  funext j
  obtain ⟨p, q, rfl⟩ : ∃ (p : Fin n) (q : Fin 128), j = ix2 p q := ⟨j 0, j 1, eq_ix2 j⟩
  rw [layer_apply]
  rw [shapeCast_self x0 hA, shapeCast_self x1 hS, shapeCast_self x3 hW, shapeCast_self x4 hW, shapeCast_self x5 hB]
  show max ((FloatOps.matmul (Cert.Lib.plainDot n 128 128 wf) none _ _ _ (ix2 p q)
      + FloatOps.matmul (Cert.Lib.plainDot n 128 128 wf) none _ _ _ (ix2 p q))
      + broadcastTo ⟨2, ![n, 128]⟩ x5 hBb (ix2 p q)) (Ideal.ofBits .f32 0x00000000#32) = _
  rw [Cert.Lib.matmul_zero_apply, Cert.Lib.matmul_zero_apply, broadcastTo_1b_ab_apply, Ideal.ofBits_zero_f32]
  unfold entry
  refine congrArg (fun z => max ((z + _) + _) 0) (Finset.sum_congr rfl fun k _ => ?_)
  show x0 (ix2 p k) * broadcastTo ⟨2, ![n, 128]⟩ x1 hSb (ix2 p k) * x3 (ix2 k q) = _
  rw [Cert.Lib.broadcastTo_a1_ab_apply]

/-- The tiled spelling with the node-feature block passed through a cast to its own shape first (the identity). -/
theorem tiled_cast_eq {n : Nat}
    (wf : DotDims.WF ⟨2, ![n, 128]⟩ ⟨2, ![128, 128]⟩ ⟨2, ![n, 128]⟩ [1] [0] [0] [1] [] [])
    (d : DotDims ⟨2, ![n, 128]⟩ ⟨2, ![128, 128]⟩ ⟨2, ![n, 128]⟩) (hd : d = Cert.Lib.plainDot n 128 128 wf)
    (hA : (⟨2, ![n, 128]⟩ : Shape).ShapeCasts ⟨2, ![n, 128]⟩) (hS : (⟨2, ![n, 1]⟩ : Shape).ShapeCasts ⟨2, ![n, 1]⟩)
    (hSb : (⟨2, ![n, 1]⟩ : Shape).Broadcasts ⟨2, ![n, 128]⟩)
    (hW : (⟨2, ![128, 128]⟩ : Shape).ShapeCasts ⟨2, ![128, 128]⟩)
    (hB : (⟨2, ![1, 128]⟩ : Shape).ShapeCasts ⟨2, ![1, 128]⟩) (hBb : (⟨2, ![1, 128]⟩ : Shape).Broadcasts ⟨2, ![n, 128]⟩)
    (hlt : FTy.bf16.bits < FTy.f32.bits)
    (x0 : FVec Ideal ⟨2, ![n, 128]⟩ .f32) (x1 : FVec Ideal ⟨2, ![n, 1]⟩ .f32) (x2 : FVec Ideal ⟨2, ![n, 128]⟩ .f32)
    (x3 x4 : FVec Ideal ⟨2, ![128, 128]⟩ .f32) (x5 : FVec Ideal ⟨2, ![1, 128]⟩ .f32) :
    maximumf
        (addf
          (addf
            (matmul d none
              (truncf .bf16 (mulf (shapeCast ⟨2, ![n, 128]⟩ x0 hA) (broadcastTo ⟨2, ![n, 128]⟩ (shapeCast ⟨2, ![n, 1]⟩ x1 hS) hSb)) hlt)
              (truncf .bf16 (shapeCast ⟨2, ![128, 128]⟩ x3 hW) hlt) (constant ⟨2, ![n, 128]⟩ .f32 0x00000000#32))
            (matmul d none (truncf .bf16 (shapeCast ⟨2, ![n, 128]⟩ x2 hA) hlt) (truncf .bf16 (shapeCast ⟨2, ![128, 128]⟩ x4 hW) hlt)
              (constant ⟨2, ![n, 128]⟩ .f32 0x00000000#32)))
          (broadcastTo ⟨2, ![n, 128]⟩ (shapeCast ⟨2, ![1, 128]⟩ x5 hB) hBb))
        (broadcast ⟨2, ![n, 128]⟩ (Scalar.ofBits (F := Ideal) .f32 0x00000000#32))
      = layer x0 x2 x1 x3 x4 (fun q => x5 (ix2 (0 : Fin 1) q)) := by
  rw [shapeCast_self x2 hA]
  exact tiled_eq wf d hd hA hS hSb hW hB hBb hlt x0 x1 x2 x3 x4 x5

/-- THE WHOLE-ARRAY SPELLING: the host's operations — scale, first product, bias spread over the nodes, second
    product, clamp at zero — are the layer too: the bias and the second product are added in the other order. -/
theorem whole_eq {n : Nat}
    (wf : DotDims.WF ⟨2, ![n, 128]⟩ ⟨2, ![128, 128]⟩ ⟨2, ![n, 128]⟩ [1] [0] [0] [1] [] [])
    (d : DotDims ⟨2, ![n, 128]⟩ ⟨2, ![128, 128]⟩ ⟨2, ![n, 128]⟩) (hd : d = Cert.Lib.plainDot n 128 128 wf)
    (hSb : (⟨2, ![n, 1]⟩ : Shape).BroadcastsInDim ⟨2, ![n, 128]⟩ ![0, 1])
    (hBr : (⟨1, ![128]⟩ : Shape).BroadcastsInDim ⟨2, ![1, 128]⟩ ![1])
    (hBb : (⟨2, ![1, 128]⟩ : Shape).BroadcastsInDim ⟨2, ![n, 128]⟩ ![0, 1])
    (hZ : (⟨0, ![]⟩ : Shape).BroadcastsInDim ⟨2, ![n, 128]⟩ ![])
    (A X : FVec Ideal ⟨2, ![n, 128]⟩ .f32) (S : FVec Ideal ⟨2, ![n, 1]⟩ .f32)
    (Wl Wr : FVec Ideal ⟨2, ![128, 128]⟩ .f32) (bv : FVec Ideal ⟨1, ![128]⟩ .f32) :
    maximumf
        (addf
          (addf
            (Host.dotGeneral d none (mulf A (broadcastInDim ⟨2, ![n, 128]⟩ ![0, 1] hSb S)) Wl)
            (broadcastInDim ⟨2, ![n, 128]⟩ ![0, 1] hBb (broadcastInDim ⟨2, ![1, 128]⟩ ![1] hBr bv)))
          (Host.dotGeneral d none X Wr))
        (broadcastInDim ⟨2, ![n, 128]⟩ ![] hZ (constant (F := Ideal) ⟨0, ![]⟩ .f32 0x00000000#32))
      = layer A X S Wl Wr (fun q => bv (ix1 q)) := by
  subst hd
  funext j
  obtain ⟨p, q, rfl⟩ : ∃ (p : Fin n) (q : Fin 128), j = ix2 p q := ⟨j 0, j 1, eq_ix2 j⟩
  rw [layer_apply]
  have hbias : broadcastInDim ⟨2, ![n, 128]⟩ ![0, 1] hBb (broadcastInDim ⟨2, ![1, 128]⟩ ![1] hBr bv) (ix2 p q) = bv (ix1 q) := by
    rw [broadcastInDim_apply ![0, 1] hBb _ (ix2 p q) (ix2 (0 : Fin 1) q) (fun a => by
      match a with
      | ⟨0, _⟩ => rfl
      | ⟨1, _⟩ => show q.val = if (128 : Nat) = 1 then 0 else q.val; rw [if_neg (by decide)])]
    exact broadcastInDim_apply ![1] hBr bv (ix2 (0 : Fin 1) q) (ix1 q) (fun a => by
      match a with
      | ⟨0, _⟩ => show q.val = if (128 : Nat) = 1 then 0 else q.val; rw [if_neg (by decide)])
  have hscale : ∀ k : Fin 128, broadcastInDim ⟨2, ![n, 128]⟩ ![0, 1] hSb S (ix2 p k) = S (ix2 p (0 : Fin 1)) := fun k =>
    broadcastInDim_apply ![0, 1] hSb S (ix2 p k) (ix2 p (0 : Fin 1)) (fun a => by
      match a with
      | ⟨0, _⟩ =>
        show p.val = if n = 1 then 0 else p.val
        split
        · have := p.isLt; omega
        · rfl
      | ⟨1, _⟩ => rfl)
  show max ((FloatOps.dotGeneral (Cert.Lib.plainDot n 128 128 wf) none .single _ _ (ix2 p q)
      + broadcastInDim ⟨2, ![n, 128]⟩ ![0, 1] hBb (broadcastInDim ⟨2, ![1, 128]⟩ ![1] hBr bv) (ix2 p q))
      + FloatOps.dotGeneral (Cert.Lib.plainDot n 128 128 wf) none .single _ _ (ix2 p q)) (Ideal.ofBits .f32 0x00000000#32) = _
  rw [Cert.Lib.dotGeneral_plain_apply, Cert.Lib.dotGeneral_plain_apply, hbias, Ideal.ofBits_zero_f32]
  unfold entry
  rw [add_right_comm]
  refine congrArg (fun z => max ((z + _) + _) 0) (Finset.sum_congr rfl fun k _ => ?_)
  show A (ix2 p k) * broadcastInDim ⟨2, ![n, 128]⟩ ![0, 1] hSb S (ix2 p k) * Wl (ix2 k q) = _
  rw [hscale k]

end Cert.Sage

end
-- ==== Proof.Stages.lean ====
/-
  The network as a function of its five arguments — the node features x, the edge list, the two weight stacks and the
  bias stack — written once, for both programs to be compared with.

  From the edge list: the source and destination node of every edge; the per-node scale 1 / max(degree, 1), where the
  degree of a node is the number of edges arriving at it (a sum of ones scattered by destination); and, for an array
  of node features, the per-node sum of the features of the sources of the arriving edges (rows gathered by source,
  scattered and added by destination). The gather and the two scatters are kept as the whole-array operations they
  are: both programs apply the same ones to the same operands, so they are never opened.

  Layer l takes node features to the layer (of LayerSpec) of their neighbour sums, themselves, the scale, the l-th
  slices of the two weight stacks transposed, and the l-th bias; the network is the four layers in turn.
-/
import proofs.«181015_j31756988186713_2_alg».proof.Proof.Gen.KernelIdeal
import proofs.«181015_j31756988186713_2_alg».proof.Proof.LayerSpec

noncomputable section

namespace Cert.Sage

open Cert.KernelIdeal Cert.KernelIdeal.Gen Idealize.ShloMosaic Idealize.ShloMosaic.ValueIdx

abbrev Nodes : Type := (⟨S100000x128, .f32⟩ : BufTy).Contents (Elt Ideal)
abbrev EdgeList : Type := (⟨S2x1600000, .i32⟩ : BufTy).Contents (Elt Ideal)
abbrev Weights : Type := (⟨S4x128x128, .f32⟩ : BufTy).Contents (Elt Ideal)
abbrev Biases : Type := (⟨S4x128, .f32⟩ : BufTy).Contents (Elt Ideal)

/-- Every edge's source node: row 0 of the edge list. -/
def src (e : EdgeList) : (⟨S1600000, .i32⟩ : BufTy).Contents (Elt Ideal) :=
  shapeCast _ (extractStridedSlice S1x1600000 ![0, 0] e slices_S2x1600000_S1x1600000_0_0) shapeCasts_S1x1600000_S1600000

/-- Every edge's destination node: row 1 of the edge list. -/
def dst (e : EdgeList) : (⟨S1600000, .i32⟩ : BufTy).Contents (Elt Ideal) :=
  shapeCast _ (extractStridedSlice S1x1600000 ![1, 0] e slices_S2x1600000_S1x1600000_1_0) shapeCasts_S1x1600000_S1600000

/-- The destinations as a column of scatter indices. -/
def dstCol (e : EdgeList) : (⟨S1600000x1, .i32⟩ : BufTy).Contents (Elt Ideal) :=
  broadcastInDim S1600000x1 ![0] bcast_S1600000_S1600000x1_0 (dst e)

/-- The sources as a column of gather indices, a negative index counted from the end. -/
def srcCol (e : EdgeList) : (⟨S1600000x1, .i32⟩ : BufTy).Contents (Elt Ideal) :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The per-node scale 1 / max(degree, 1), as a column. -/
def invDeg (e : EdgeList) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1600000x1_S1600000_n_0_0_1
          (broadcastInDim S100000 ![] bcast_S_S100000 (constant (F := Ideal) S_ .f32 0x00000000#32)) (dstCol e)
          (broadcastInDim S1600000 ![] bcast_S_S1600000 (constant (F := Ideal) S_ .f32 0x3F800000#32)))
        (broadcastInDim S100000 ![] bcast_S_S100000 (constant (F := Ideal) S_ .f32 0x3F800000#32))))

/-- The per-node sum of the arriving edges' source features. -/
def agg (e : EdgeList) (x : Nodes) : Nodes :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 x (srcCol e))

/-- Slice 0 of a weight stack, transposed. -/
def wT0 (W : Weights) : (⟨S128x128, .f32⟩ : BufTy).Contents (Elt Ideal) :=
  transpose S128x128 [1, 0]
    (shapeCast _ (extractStridedSlice S1x128x128 ![0, 0, 0] W slices_S4x128x128_S1x128x128_0_0_0) shapeCasts_S1x128x128_S128x128)
    transposes_S128x128_S128x128_1_0

/-- Bias 0. -/
def bvec0 (b : Biases) : (⟨S128, .f32⟩ : BufTy).Contents (Elt Ideal) :=
  shapeCast _ (extractStridedSlice S1x128 ![0, 0] b slices_S4x128_S1x128_0_0) shapeCasts_S1x128_S128

/-- Layer 0. -/
def step0 (e : EdgeList) (Wl : Weights) (bl : Biases) (Wr : Weights) (x : Nodes) : Nodes :=
  layer (n := 100000) (agg e x) x (invDeg e) (wT0 Wl) (wT0 Wr) (fun q => bvec0 bl (ix1 q))

/-- Slice 1 of a weight stack, transposed. -/
def wT1 (W : Weights) : (⟨S128x128, .f32⟩ : BufTy).Contents (Elt Ideal) :=
  transpose S128x128 [1, 0]
    (shapeCast _ (extractStridedSlice S1x128x128 ![1, 0, 0] W slices_S4x128x128_S1x128x128_1_0_0) shapeCasts_S1x128x128_S128x128)
    transposes_S128x128_S128x128_1_0

/-- Bias 1. -/
def bvec1 (b : Biases) : (⟨S128, .f32⟩ : BufTy).Contents (Elt Ideal) :=
  shapeCast _ (extractStridedSlice S1x128 ![1, 0] b slices_S4x128_S1x128_1_0) shapeCasts_S1x128_S128

/-- Layer 1. -/
def step1 (e : EdgeList) (Wl : Weights) (bl : Biases) (Wr : Weights) (x : Nodes) : Nodes :=
  layer (n := 100000) (agg e x) x (invDeg e) (wT1 Wl) (wT1 Wr) (fun q => bvec1 bl (ix1 q))

/-- Slice 2 of a weight stack, transposed. -/
def wT2 (W : Weights) : (⟨S128x128, .f32⟩ : BufTy).Contents (Elt Ideal) :=
  transpose S128x128 [1, 0]
    (shapeCast _ (extractStridedSlice S1x128x128 ![2, 0, 0] W slices_S4x128x128_S1x128x128_2_0_0) shapeCasts_S1x128x128_S128x128)
    transposes_S128x128_S128x128_1_0

/-- Bias 2. -/
def bvec2 (b : Biases) : (⟨S128, .f32⟩ : BufTy).Contents (Elt Ideal) :=
  shapeCast _ (extractStridedSlice S1x128 ![2, 0] b slices_S4x128_S1x128_2_0) shapeCasts_S1x128_S128

/-- Layer 2. -/
def step2 (e : EdgeList) (Wl : Weights) (bl : Biases) (Wr : Weights) (x : Nodes) : Nodes :=
  layer (n := 100000) (agg e x) x (invDeg e) (wT2 Wl) (wT2 Wr) (fun q => bvec2 bl (ix1 q))

/-- Slice 3 of a weight stack, transposed. -/
def wT3 (W : Weights) : (⟨S128x128, .f32⟩ : BufTy).Contents (Elt Ideal) :=
  transpose S128x128 [1, 0]
    (shapeCast _ (extractStridedSlice S1x128x128 ![3, 0, 0] W slices_S4x128x128_S1x128x128_3_0_0) shapeCasts_S1x128x128_S128x128)
    transposes_S128x128_S128x128_1_0

/-- Bias 3. -/
def bvec3 (b : Biases) : (⟨S128, .f32⟩ : BufTy).Contents (Elt Ideal) :=
  shapeCast _ (extractStridedSlice S1x128 ![3, 0] b slices_S4x128_S1x128_3_0) shapeCasts_S1x128_S128

/-- Layer 3. -/
def step3 (e : EdgeList) (Wl : Weights) (bl : Biases) (Wr : Weights) (x : Nodes) : Nodes :=
  layer (n := 100000) (agg e x) x (invDeg e) (wT3 Wl) (wT3 Wr) (fun q => bvec3 bl (ix1 q))

/-- The network: the four layers in turn. -/
def network (x : Nodes) (e : EdgeList) (Wl : Weights) (bl : Biases) (Wr : Weights) : Nodes :=
  step3 e Wl bl Wr (step2 e Wl bl Wr (step1 e Wl bl Wr (step0 e Wl bl Wr x)))

end Cert.Sage

end
-- ==== Proof.Region0.lean ====
/-
  Region 0 of the program (the layer's tiled kernel, launched over twenty blocks of 5000 nodes), read as a whole.

  At grid point t every input window that moves with the grid holds rows 5000·t … 5000·t + 4999 of its array, and the
  two weight matrices and the bias row are held whole. The body stores, over the whole output block, the layer of
  those blocks; so what point t writes back is block t of the layer of the whole arrays. The twenty output blocks
  tile the output array (row r lies in block r / 5000), hence after the region the output array is the layer of the
  arrays the region was entered with.
-/
import proofs.«181015_j31756988186713_2_alg».proof.Proof.Gen.KernelIdeal.Frame
import proofs.«181015_j31756988186713_2_alg».proof.Proof.LayerSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k0_pay1 (F := Ideal) x0 x1 x2 x3 x4 x5 = layer (n := 5000) x0 x2 x1 x3 x4 (fun q => x5 (ix2 (0 : Fin 1) q)) := by
  unfold k0_pay1
  exact tiled_eq (n := 5000) dot_S5000x128_S128x128_S5000x128_1_0_0_1_n_n_wf dot_S5000x128_S128x128_S5000x128_1_0_0_1_n_n rfl
    _ _ _ _ _ _ _ x0 x1 x2 x3 x4 x5

/-- The printed index maps over the grid: the three node-indexed inputs and the output take block t at point t; the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 20 := lt_of_lt_of_eq t.isLt N_0

/-- The node that row p of block t is. -/
def rowAt (t : Fin cfg0.N) (p : Fin 5000) : Fin 100000 := ⟨t.val * 5000 + p.val, by have := t_lt t; omega⟩

/-! ## Each window's block at a point, read off its array -/

theorem blk_0 (c : Dev nD) (t : Fin cfg0.N) (p : Fin 5000) (k : Fin 128) :
    iblk0 V c 0 t (ix2 p k) = V c main_v22 (ix2 (rowAt t p) k) := by
  obtain ⟨e0, e1, -⟩ := idx_facts t
  show V c main_v22 (((cfg0.win 0).blk t).view.emb (ix2 p k)) = V c main_v22 (ix2 (rowAt t p) k)
  refine congrArg (V c main_v22) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blk_1 (c : Dev nD) (t : Fin cfg0.N) (p : Fin 5000) :
    iblk0 V c 1 t (ix2 p (0 : Fin 1)) = V c main_v12 (ix2 (rowAt t p) (0 : Fin 1)) := by
  obtain ⟨-, -, e0, e1, -⟩ := idx_facts t
  show V c main_v12 (((cfg0.win 1).blk t).view.emb (ix2 p (0 : Fin 1))) = V c main_v12 (ix2 (rowAt t p) (0 : Fin 1))
  refine congrArg (V c main_v12) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

theorem blk_2 (c : Dev nD) (t : Fin cfg0.N) (p : Fin 5000) (k : Fin 128) :
    iblk0 V c 2 t (ix2 p k) = V c main_arg0 (ix2 (rowAt t p) k) := by
  obtain ⟨-, -, -, -, e0, e1, -⟩ := idx_facts t
  show V c main_arg0 (((cfg0.win 2).blk t).view.emb (ix2 p k)) = V c main_arg0 (ix2 (rowAt t p) k)
  refine congrArg (V c main_arg0) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega

theorem blk_3 (c : Dev nD) (t : Fin cfg0.N) (k q : Fin 128) :
    iblk0 V c 3 t (ix2 k q) = V c main_v25 (ix2 k q) := by
  obtain ⟨-, -, -, -, -, -, e0, e1, -⟩ := idx_facts t
  show V c main_v25 (((cfg0.win 3).blk t).view.emb (ix2 k q)) = V c main_v25 (ix2 k q)
  refine congrArg (V c main_v25) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk_4 (c : Dev nD) (t : Fin cfg0.N) (k q : Fin 128) :
    iblk0 V c 4 t (ix2 k q) = V c main_v28 (ix2 k q) := by
  obtain ⟨-, -, -, -, -, -, -, -, e0, e1, -⟩ := idx_facts t
  show V c main_v28 (((cfg0.win 4).blk t).view.emb (ix2 k q)) = V c main_v28 (ix2 k q)
  refine congrArg (V c main_v28) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem blk_5 (c : Dev nD) (t : Fin cfg0.N) (q : Fin 128) :
    iblk0 V c 5 t (ix2 (0 : Fin 1) q) = V c main_v31 (ix2 (0 : Fin 1) q) := by
  obtain ⟨-, -, -, -, -, -, -, -, -, -, e0, e1, -⟩ := idx_facts t
  show V c main_v31 (((cfg0.win 5).blk t).view.emb (ix2 (0 : Fin 1) q)) = V c main_v31 (ix2 (0 : Fin 1) q)
  refine congrArg (V c main_v31) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- Where entry (p, q) of output block t lies in the output array. -/
theorem emb_out (t : Fin cfg0.N) (p : Fin 5000) (q : Fin 128) :
    ((cfg0.win 6).blk t).view.emb (ix2 p q) = ix2 (rowAt t p) q := by
  obtain ⟨-, -, -, -, -, -, -, -, -, -, -, -, e0, e1⟩ := idx_facts t
  refine funext fun a => Fin.ext ?_
  match a with
  | ⟨0, _⟩ => show win0_6.index t (0 : Fin 2) * 5000 + 1 * p.val = t.val * 5000 + p.val; rw [e0]; omega
  | ⟨1, _⟩ => show win0_6.index t (1 : Fin 2) * 128 + 1 * q.val = q.val; rw [e1]; omega

/-- The layer of the arrays the region is entered with. -/
abbrev result (c : Dev nD) : S100000x128.Idx → EReal :=
  layer (n := 100000) (V c main_v22) (V c main_arg0) (V c main_v12) (V c main_v25) (V c main_v28) (fun q => V c main_v31 (ix2 (0 : Fin 1) q))

/-- WHAT POINT t WRITES BACK is block t of the layer of the whole arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  funext j
  obtain ⟨p, q, rfl⟩ : ∃ (p : Fin 5000) (q : Fin 128), j = ix2 p q := ⟨j 0, j 1, eq_ix2 j⟩
  show _ = result V c (((cfg0.win 6).blk t).view.emb (ix2 p q))
  rw [emb_out]
  have h0 : (fun k : Fin 128 => iblk0 V c 0 t (ix2 p k)) = fun k => V c main_v22 (ix2 (rowAt t p) k) := funext fun k => blk_0 V c t p k
  have h2 : (fun k : Fin 128 => iblk0 V c 2 t (ix2 p k)) = fun k => V c main_arg0 (ix2 (rowAt t p) k) := funext fun k => blk_2 V c t p k
  have h3 : (fun k : Fin 128 => iblk0 V c 3 t (ix2 k q)) = fun k => V c main_v25 (ix2 k q) := funext fun k => blk_3 V c t k q
  have h4 : (fun k : Fin 128 => iblk0 V c 4 t (ix2 k q)) = fun k => V c main_v28 (ix2 k q) := funext fun k => blk_4 V c t k q
  exact congr (congr (congr (congr (congr (congrArg entry h0) h2) (blk_1 V c t p)) h3) h4) (blk_5 V c t q)

/-- An index of the output array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v32).slice (win0_6.rect t)).set ↔ _
  rw [View.set_slice_whole, Rect.mem_set_unit]
  exact Iff.rfl

/-- The twenty output blocks tile the output array: row r lies in block r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- THE OUTPUT ARRAY AFTER THE REGION is the layer of the arrays the region was entered with. -/
theorem final (c : Dev nD) : (dat0 V c).arrAt 6 cfg0.N = result V c :=
  (dat0 V c).arrAt_eq_of_cover 6 (result V c) (fun t _ => flushed_eq V c t) cover

end Cert.KernelIdeal.Region0

end
-- ==== Proof.Region1.lean ====
/-
  Region 1 of the program (the layer's tiled kernel, launched over twenty blocks of 5000 nodes), read as a whole.

  At grid point t every input window that moves with the grid holds rows 5000·t … 5000·t + 4999 of its array, and the
  two weight matrices and the bias row are held whole. The body stores, over the whole output block, the layer of
  those blocks; so what point t writes back is block t of the layer of the whole arrays. The twenty output blocks
  tile the output array (row r lies in block r / 5000), hence after the region the output array is the layer of the
  arrays the region was entered with.
-/
import proofs.«181015_j31756988186713_2_alg».proof.Proof.Gen.KernelIdeal.Frame
import proofs.«181015_j31756988186713_2_alg».proof.Proof.LayerSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k1_pay1 (F := Ideal) x0 x1 x2 x3 x4 x5 = layer (n := 5000) x0 x2 x1 x3 x4 (fun q => x5 (ix2 (0 : Fin 1) q)) := by
  unfold k1_pay1
  exact tiled_cast_eq (n := 5000) dot_S5000x128_S128x128_S5000x128_1_0_0_1_n_n_wf dot_S5000x128_S128x128_S5000x128_1_0_0_1_n_n rfl
    _ _ _ _ _ _ _ x0 x1 x2 x3 x4 x5

/-- The printed index maps over the grid: the three node-indexed inputs and the output take block t at point t; the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 20 := lt_of_lt_of_eq t.isLt N_1

/-- The node that row p of block t is. -/
def rowAt (t : Fin cfg1.N) (p : Fin 5000) : Fin 100000 := ⟨t.val * 5000 + p.val, by have := t_lt t; omega⟩

/-! ## Each window's block at a point, read off its array -/

theorem blk_0 (c : Dev nD) (t : Fin cfg1.N) (p : Fin 5000) (k : Fin 128) :
    iblk1 V c 0 t (ix2 p k) = V c main_v42 (ix2 (rowAt t p) k) := by
  obtain ⟨e0, e1, -⟩ := idx_facts t
  show V c main_v42 (((cfg1.win 0).blk t).view.emb (ix2 p k)) = V c main_v42 (ix2 (rowAt t p) k)
  refine congrArg (V c main_v42) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem blk_1 (c : Dev nD) (t : Fin cfg1.N) (p : Fin 5000) :
    iblk1 V c 1 t (ix2 p (0 : Fin 1)) = V c main_v12 (ix2 (rowAt t p) (0 : Fin 1)) := by
  obtain ⟨-, -, e0, e1, -⟩ := idx_facts t
  show V c main_v12 (((cfg1.win 1).blk t).view.emb (ix2 p (0 : Fin 1))) = V c main_v12 (ix2 (rowAt t p) (0 : Fin 1))
  refine congrArg (V c main_v12) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

theorem blk_2 (c : Dev nD) (t : Fin cfg1.N) (p : Fin 5000) (k : Fin 128) :
    iblk1 V c 2 t (ix2 p k) = V c main_v32 (ix2 (rowAt t p) k) := by
  obtain ⟨-, -, -, -, e0, e1, -⟩ := idx_facts t
  show V c main_v32 (((cfg1.win 2).blk t).view.emb (ix2 p k)) = V c main_v32 (ix2 (rowAt t p) k)
  refine congrArg (V c main_v32) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 128 + 1 * k.val = k.val; rw [e1]; omega

theorem blk_3 (c : Dev nD) (t : Fin cfg1.N) (k q : Fin 128) :
    iblk1 V c 3 t (ix2 k q) = V c main_v45 (ix2 k q) := by
  obtain ⟨-, -, -, -, -, -, e0, e1, -⟩ := idx_facts t
  show V c main_v45 (((cfg1.win 3).blk t).view.emb (ix2 k q)) = V c main_v45 (ix2 k q)
  refine congrArg (V c main_v45) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem blk_4 (c : Dev nD) (t : Fin cfg1.N) (k q : Fin 128) :
    iblk1 V c 4 t (ix2 k q) = V c main_v48 (ix2 k q) := by
  obtain ⟨-, -, -, -, -, -, -, -, e0, e1, -⟩ := idx_facts t
  show V c main_v48 (((cfg1.win 4).blk t).view.emb (ix2 k q)) = V c main_v48 (ix2 k q)
  refine congrArg (V c main_v48) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

theorem blk_5 (c : Dev nD) (t : Fin cfg1.N) (q : Fin 128) :
    iblk1 V c 5 t (ix2 (0 : Fin 1) q) = V c main_v51 (ix2 (0 : Fin 1) q) := by
  obtain ⟨-, -, -, -, -, -, -, -, -, -, e0, e1, -⟩ := idx_facts t
  show V c main_v51 (((cfg1.win 5).blk t).view.emb (ix2 (0 : Fin 1) q)) = V c main_v51 (ix2 (0 : Fin 1) q)
  refine congrArg (V c main_v51) (funext fun a => Fin.ext ?_)
  match a with
  | ⟨0, _⟩ => show win1_5.index t (0 : Fin 2) * 1 + 1 * 0 = 0; rw [e0]
  | ⟨1, _⟩ => show win1_5.index t (1 : Fin 2) * 128 + 1 * q.val = q.val; rw [e1]; omega

/-- Where entry (p, q) of output block t lies in the output array. -/
theorem emb_out (t : Fin cfg1.N) (p : Fin 5000) (q : Fin 128) :
    ((cfg1.win 6).blk t).view.emb (ix2 p q) = ix2 (rowAt t p) q := by
  obtain ⟨-, -, -, -, -, -, -, -, -, -, -, -, e0, e1⟩ := idx_facts t
  refine funext fun a => Fin.ext ?_
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- The layer of the arrays the region is entered with. -/
abbrev result (c : Dev nD) : S100000x128.Idx → EReal :=
  layer (n := 100000) (V c main_v42) (V c main_v32) (V c main_v12) (V c main_v45) (V c main_v48) (fun q => V c main_v51 (ix2 (0 : Fin 1) q))

/-- WHAT POINT t WRITES BACK is block t of the layer of the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  funext j
  obtain ⟨p, q, rfl⟩ : ∃ (p : Fin 5000) (q : Fin 128), j = ix2 p q := ⟨j 0, j 1, eq_ix2 j⟩
  show _ = result V c (((cfg1.win 6).blk t).view.emb (ix2 p q))
  rw [emb_out]
  have h0 : (fun k : Fin 128 => iblk1 V c 0 t (ix2 p k)) = fun k => V c main_v42 (ix2 (rowAt t p) k) := funext fun k => blk_0 V c t p k
  have h2 : (fun k : Fin 128 => iblk1 V c 2 t (ix2 p k)) = fun k => V c main_v32 (ix2 (rowAt t p) k) := funext fun k => blk_2 V c t p k
  have h3 : (fun k : Fin 128 => iblk1 V c 3 t (ix2 k q)) = fun k => V c main_v45 (ix2 k q) := funext fun k => blk_3 V c t k q
  have h4 : (fun k : Fin 128 => iblk1 V c 4 t (ix2 k q)) = fun k => V c main_v48 (ix2 k q) := funext fun k => blk_4 V c t k q
  exact congr (congr (congr (congr (congr (congrArg entry h0) h2) (blk_1 V c t p)) h3) h4) (blk_5 V c t q)

/-- An index of the output array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v52).slice (win1_6.rect t)).set ↔ _
  rw [View.set_slice_whole, Rect.mem_set_unit]
  exact Iff.rfl

/-- The twenty output blocks tile the output array: row r lies in block r / 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨-, -, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

/-- THE OUTPUT ARRAY AFTER THE REGION is the layer of the arrays the region was entered with. -/
theorem final (c : Dev nD) : (dat1 V c).arrAt 6 cfg1.N = result V c :=
  (dat1 V c).arrAt_eq_of_cover 6 (result V c) (fun t _ => flushed_eq V c t) cover

end Cert.KernelIdeal.Region1

end
-- ==== Proof.Region2.lean ====
/-
  Region 2 of the program (the layer's tiled kernel, launched over twenty blocks of 5000 nodes), read as a whole.

  At grid point t every input window that moves with the grid holds rows 5000·t … 5000·t + 4999 of its array, and the
  two weight matrices and the bias row are held whole. The body stores, over the whole output block, the layer of
  those blocks; so what point t writes back is block t of the layer of the whole arrays. The twenty output blocks
  tile the output array (row r lies in block r / 5000), hence after the region the output array is the layer of the
  arrays the region was entered with.
-/
import proofs.«181015_j31756988186713_2_alg».proof.Proof.Gen.KernelIdeal.Frame
import proofs.«181015_j31756988186713_2_alg».proof.Proof.LayerSpec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k2_pay1 (F := Ideal) x0 x1 x2 x3 x4 x5 = layer (n := 5000) x0 x2 x1 x3 x4 (fun q => x5 (ix2 (0 : Fin 1) q)) := by
  unfold k2_pay1
  exact tiled_cast_eq (n := 5000) dot_S5000x128_S128x128_S5000x128_1_0_0_1_n_n_wf dot_S5000x128_S128x128_S5000x128_1_0_0_1_n_n rfl
    _ _ _ _ _ _ _ x0 x1 x2 x3 x4 x5

/-- The printed index maps over the grid: the three node-indexed inputs and the output take block t at point t; the
    weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 20 := lt_of_lt_of_eq t.isLt N_2

/-- The node that row p of block t is. -/
def rowAt (t : Fin cfg2.N) (p : Fin 5000) : Fin 100000 := ⟨t.val * 5000 + p.val, by have := t_lt t; omega⟩

/-! ## Each window's block at a point, read off its array -/

theorem blk_0 (c : Dev nD) (t : Fin cfg2.N) (p : Fin 5000) (k : Fin 128) :
    iblk2 V c 0 t (ix2 p k) = V c main_v62 (ix2 (rowAt t p) k) := by
  obtain ⟨e0, e1, -⟩ := idx_facts t
  show V c main_v62 (((cfg2.win 0).blk t).view.emb (ix2 p k)) = V c main_v62 (ix2 (rowAt t p) k)
  refine congrArg (V c main_v62) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem blk_1 (c : Dev nD) (t : Fin cfg2.N) (p : Fin 5000) :
    iblk2 V c 1 t (ix2 p (0 : Fin 1)) = V c main_v12 (ix2 (rowAt t p) (0 : Fin 1)) := by
  obtain ⟨-, -, e0, e1, -⟩ := idx_facts t
  show V c main_v12 (((cfg2.win 1).blk t).view.emb (ix2 p (0 : Fin 1))) = V c main_v12 (ix2 (rowAt t p) (0 : Fin 1))
  refine congrArg (V c main_v12) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

theorem blk_2 (c : Dev nD) (t : Fin cfg2.N) (p : Fin 5000) (k : Fin 128) :
    iblk2 V c 2 t (ix2 p k) = V c main_v52 (ix2 (rowAt t p) k) := by
  obtain ⟨-, -, -, -, e0, e1, -⟩ := idx_facts t
  show V c main_v52 (((cfg2.win 2).blk t).view.emb (ix2 p k)) = V c main_v52 (ix2 (rowAt t p) k)
  refine congrArg (V c main_v52) (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 128 + 1 * k.val = k.val; rw [e1]; omega

theorem blk_3 (c : Dev nD) (t : Fin cfg2.N) (k q : Fin 128) :
    iblk2 V c 3 t (ix2 k q) = V c main_v65 (ix2 k q) := by
  obtain ⟨-, -, -, -, -, -, e0, e1, -⟩ := idx_facts t
  show V c main_v65 (((cfg2.win 3).blk t).view.emb (ix2 k q)) = V c main_v65 (ix2 k q)
  refine congrArg (V c main_v65) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

theorem blk_4 (c : Dev nD) (t : Fin cfg2.N) (k q : Fin 128) :
    iblk2 V c 4 t (ix2 k q) = V c main_v68 (ix2 k q) := by
  obtain ⟨-, -, -, -, -, -, -, -, e0, e1, -⟩ := idx_facts t
  show V c main_v68 (((cfg2.win 4).blk t).view.emb (ix2 k q)) = V c main_v68 (ix2 k q)
  refine congrArg (V c main_v68) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

theorem blk_5 (c : Dev nD) (t : Fin cfg2.N) (q : Fin 128) :
    iblk2 V c 5 t (ix2 (0 : Fin 1) q) = V c main_v71 (ix2 (0 : Fin 1) q) := by
  obtain ⟨-, -, -, -, -, -, -, -, -, -, e0, e1, -⟩ := idx_facts t
  show V c main_v71 (((cfg2.win 5).blk t).view.emb (ix2 (0 : Fin 1) q)) = V c main_v71 (ix2 (0 : Fin 1) q)
  refine congrArg (V c main_v71) (funext fun a => Fin.ext ?_)
  match a with
  | ⟨0, _⟩ => show win2_5.index t (0 : Fin 2) * 1 + 1 * 0 = 0; rw [e0]
  | ⟨1, _⟩ => show win2_5.index t (1 : Fin 2) * 128 + 1 * q.val = q.val; rw [e1]; omega

/-- Where entry (p, q) of output block t lies in the output array. -/
theorem emb_out (t : Fin cfg2.N) (p : Fin 5000) (q : Fin 128) :
    ((cfg2.win 6).blk t).view.emb (ix2 p q) = ix2 (rowAt t p) q := by
  obtain ⟨-, -, -, -, -, -, -, -, -, -, -, -, e0, e1⟩ := idx_facts t
  refine funext fun a => Fin.ext ?_
  match a with
  | ⟨0, _⟩ => show win2_6.index t (0 : Fin 2) * 5000 + 1 * p.val = t.val * 5000 + p.val; rw [e0]; omega
  | ⟨1, _⟩ => show win2_6.index t (1 : Fin 2) * 128 + 1 * q.val = q.val; rw [e1]; omega

/-- The layer of the arrays the region is entered with. -/
abbrev result (c : Dev nD) : S100000x128.Idx → EReal :=
  layer (n := 100000) (V c main_v62) (V c main_v52) (V c main_v12) (V c main_v65) (V c main_v68) (fun q => V c main_v71 (ix2 (0 : Fin 1) q))

/-- WHAT POINT t WRITES BACK is block t of the layer of the whole arrays. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  funext j
  obtain ⟨p, q, rfl⟩ : ∃ (p : Fin 5000) (q : Fin 128), j = ix2 p q := ⟨j 0, j 1, eq_ix2 j⟩
  show _ = result V c (((cfg2.win 6).blk t).view.emb (ix2 p q))
  rw [emb_out]
  have h0 : (fun k : Fin 128 => iblk2 V c 0 t (ix2 p k)) = fun k => V c main_v62 (ix2 (rowAt t p) k) := funext fun k => blk_0 V c t p k
  have h2 : (fun k : Fin 128 => iblk2 V c 2 t (ix2 p k)) = fun k => V c main_v52 (ix2 (rowAt t p) k) := funext fun k => blk_2 V c t p k
  have h3 : (fun k : Fin 128 => iblk2 V c 3 t (ix2 k q)) = fun k => V c main_v65 (ix2 k q) := funext fun k => blk_3 V c t k q
  have h4 : (fun k : Fin 128 => iblk2 V c 4 t (ix2 k q)) = fun k => V c main_v68 (ix2 k q) := funext fun k => blk_4 V c t k q
  exact congr (congr (congr (congr (congr (congrArg entry h0) h2) (blk_1 V c t p)) h3) h4) (blk_5 V c t q)

/-- An index of the output array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v72).slice (win2_6.rect t)).set ↔ _
  rw [View.set_slice_whole, Rect.mem_set_unit]
  exact Iff.rfl

/-- The twenty output blocks tile the output array: row r lies in block r / 5000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  obtain ⟨-, -, -, -, -, -, -, -, -, -, -, -, e0, e1⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]; omega

/-- THE OUTPUT ARRAY AFTER THE REGION is the layer of the arrays the region was entered with. -/
theorem final (c : Dev nD) : (dat2 V c).arrAt 6 cfg2.N = result V c :=
  (dat2 V c).arrAt_eq_of_cover 6 (result V c) (fun t _ => flushed_eq V c t) cover

end Cert.KernelIdeal.Region2

end
-- ==== Proof.Region3.lean ====
/-
  Region 3 of the program (the layer's tiled kernel, launched over twenty blocks of 5000 nodes), read as a whole.

  At grid point t every input window that moves with the grid holds rows 5000·t … 5000·t + 4999 of its array, and the
  two weight matrices and the bias row are held whole. The body stores, over the whole output block, the layer of
  those blocks; so what point t writes back is block t of the layer of the whole arrays. The twenty output blocks
  tile the output array (row r lies in block r / 5000), hence after the region the output array is the layer of the
  arrays the region was entered with.
-/
import proofs.«181015_j31756988186713_2_alg».proof.Proof.Gen.KernelIdeal.Frame
import proofs.«181015_j31756988186713_2_alg».proof.Proof.LayerSpec
import Idealize.ShloMosaic.Lib.Pipeline.Value
import Idealize.ShloMosaic.Lib.ValueIdx

set_option maxRecDepth 16384

noncomputable section

namespace Cert.KernelIdeal.Region3

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k3_pay1 (F := Ideal) x0 x1 x2 x3 x4 x5 = layer (n := 5000) x0 x2 x1 x3 x4 (fun q => x5 (ix2 (0 : Fin 1) q)) := by
  unfold k3_pay1
  exact tiled_cast_eq (n := 5000) dot_S5000x128_S128x128_S5000x128_1_0_0_1_n_n_wf dot_S5000x128_S128x128_S5000x128_1_0_0_1_n_n rfl
    _ _ _ _ _ _ _ x0 x1 x2 x3 x4 x5

/-- The printed index maps over the grid: the three node-indexed inputs and the output take block t at point t; the
    weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem t_lt (t : Fin cfg3.N) : t.val < 20 := lt_of_lt_of_eq t.isLt N_3

/-- The node that row p of block t is. -/
def rowAt (t : Fin cfg3.N) (p : Fin 5000) : Fin 100000 := ⟨t.val * 5000 + p.val, by have := t_lt t; omega⟩

/-! ## Each window's block at a point, read off its array -/

theorem blk_0 (c : Dev nD) (t : Fin cfg3.N) (p : Fin 5000) (k : Fin 128) :
    iblk3 V c 0 t (ix2 p k) = V c main_v82 (ix2 (rowAt t p) k) := by
  obtain ⟨e0, e1, -⟩ := idx_facts t
  show V c main_v82 (((cfg3.win 0).blk t).view.emb (ix2 p k)) = V c main_v82 (ix2 (rowAt t p) k)
  refine congrArg (V c main_v82) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

theorem blk_1 (c : Dev nD) (t : Fin cfg3.N) (p : Fin 5000) :
    iblk3 V c 1 t (ix2 p (0 : Fin 1)) = V c main_v12 (ix2 (rowAt t p) (0 : Fin 1)) := by
  obtain ⟨-, -, e0, e1, -⟩ := idx_facts t
  show V c main_v12 (((cfg3.win 1).blk t).view.emb (ix2 p (0 : Fin 1))) = V c main_v12 (ix2 (rowAt t p) (0 : Fin 1))
  refine congrArg (V c main_v12) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 1 + 1 * 0 = 0; rw [e1]

theorem blk_2 (c : Dev nD) (t : Fin cfg3.N) (p : Fin 5000) (k : Fin 128) :
    iblk3 V c 2 t (ix2 p k) = V c main_v72 (ix2 (rowAt t p) k) := by
  obtain ⟨-, -, -, -, e0, e1, -⟩ := idx_facts t
  show V c main_v72 (((cfg3.win 2).blk t).view.emb (ix2 p k)) = V c main_v72 (ix2 (rowAt t p) k)
  refine congrArg (V c main_v72) (funext fun a => Fin.ext ?_)
  match a with
  | ⟨0, _⟩ => show win3_2.index t (0 : Fin 2) * 5000 + 1 * p.val = t.val * 5000 + p.val; rw [e0]; omega
  | ⟨1, _⟩ => show win3_2.index t (1 : Fin 2) * 128 + 1 * k.val = k.val; rw [e1]; omega

theorem blk_3 (c : Dev nD) (t : Fin cfg3.N) (k q : Fin 128) :
    iblk3 V c 3 t (ix2 k q) = V c main_v85 (ix2 k q) := by
  obtain ⟨-, -, -, -, -, -, e0, e1, -⟩ := idx_facts t
  show V c main_v85 (((cfg3.win 3).blk t).view.emb (ix2 k q)) = V c main_v85 (ix2 k q)
  refine congrArg (V c main_v85) (funext fun a => Fin.ext ?_)
  match a with
  | ⟨0, _⟩ => show win3_3.index t (0 : Fin 2) * 128 + 1 * k.val = k.val; rw [e0]; omega
  | ⟨1, _⟩ => show win3_3.index t (1 : Fin 2) * 128 + 1 * q.val = q.val; rw [e1]; omega

theorem blk_4 (c : Dev nD) (t : Fin cfg3.N) (k q : Fin 128) :
    iblk3 V c 4 t (ix2 k q) = V c main_v88 (ix2 k q) := by
  obtain ⟨-, -, -, -, -, -, -, -, e0, e1, -⟩ := idx_facts t
  show V c main_v88 (((cfg3.win 4).blk t).view.emb (ix2 k q)) = V c main_v88 (ix2 k q)
  refine congrArg (V c main_v88) (funext fun a => Fin.ext ?_)
  match a with
  | ⟨0, _⟩ => show win3_4.index t (0 : Fin 2) * 128 + 1 * k.val = k.val; rw [e0]; omega
  | ⟨1, _⟩ => show win3_4.index t (1 : Fin 2) * 128 + 1 * q.val = q.val; rw [e1]; omega

theorem blk_5 (c : Dev nD) (t : Fin cfg3.N) (q : Fin 128) :
    iblk3 V c 5 t (ix2 (0 : Fin 1) q) = V c main_v91 (ix2 (0 : Fin 1) q) := by
  obtain ⟨-, -, -, -, -, -, -, -, -, -, e0, e1, -⟩ := idx_facts t
  show V c main_v91 (((cfg3.win 5).blk t).view.emb (ix2 (0 : Fin 1) q)) = V c main_v91 (ix2 (0 : Fin 1) q)
  refine congrArg (V c main_v91) (funext fun a => Fin.ext ?_)
  match a with
  | ⟨0, _⟩ => show win3_5.index t (0 : Fin 2) * 1 + 1 * 0 = 0; rw [e0]
  | ⟨1, _⟩ => show win3_5.index t (1 : Fin 2) * 128 + 1 * q.val = q.val; rw [e1]; omega

/-- Where entry (p, q) of output block t lies in the output array. -/
theorem emb_out (t : Fin cfg3.N) (p : Fin 5000) (q : Fin 128) :
    ((cfg3.win 6).blk t).view.emb (ix2 p q) = ix2 (rowAt t p) q := by
  obtain ⟨-, -, -, -, -, -, -, -, -, -, -, -, e0, e1⟩ := idx_facts t
  refine funext fun a => Fin.ext ?_
  match a with
  | ⟨0, _⟩ => show win3_6.index t (0 : Fin 2) * 5000 + 1 * p.val = t.val * 5000 + p.val; rw [e0]; omega
  | ⟨1, _⟩ => show win3_6.index t (1 : Fin 2) * 128 + 1 * q.val = q.val; rw [e1]; omega

/-- The layer of the arrays the region is entered with. -/
abbrev result (c : Dev nD) : S100000x128.Idx → EReal :=
  layer (n := 100000) (V c main_v82) (V c main_v72) (V c main_v12) (V c main_v85) (V c main_v88) (fun q => V c main_v91 (ix2 (0 : Fin 1) q))

/-- WHAT POINT t WRITES BACK is block t of the layer of the whole arrays. -/
theorem flushed_eq (c : Dev nD) (t : Fin cfg3.N) :
    (dat3 V c).flushed 6 t = ((cfg3.win 6).blk t).view.read (Elt Ideal) (result V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  funext j
  obtain ⟨p, q, rfl⟩ : ∃ (p : Fin 5000) (q : Fin 128), j = ix2 p q := ⟨j 0, j 1, eq_ix2 j⟩
  show _ = result V c (((cfg3.win 6).blk t).view.emb (ix2 p q))
  rw [emb_out]
  have h0 : (fun k : Fin 128 => iblk3 V c 0 t (ix2 p k)) = fun k => V c main_v82 (ix2 (rowAt t p) k) := funext fun k => blk_0 V c t p k
  have h2 : (fun k : Fin 128 => iblk3 V c 2 t (ix2 p k)) = fun k => V c main_v72 (ix2 (rowAt t p) k) := funext fun k => blk_2 V c t p k
  have h3 : (fun k : Fin 128 => iblk3 V c 3 t (ix2 k q)) = fun k => V c main_v85 (ix2 k q) := funext fun k => blk_3 V c t k q
  have h4 : (fun k : Fin 128 => iblk3 V c 4 t (ix2 k q)) = fun k => V c main_v88 (ix2 k q) := funext fun k => blk_4 V c t k q
  exact congr (congr (congr (congr (congr (congrArg entry h0) h2) (blk_1 V c t p)) h3) h4) (blk_5 V c t q)

/-- An index of the output array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v92).slice (win3_6.rect t)).set ↔ _
  rw [View.set_slice_whole, Rect.mem_set_unit]
  exact Iff.rfl

/-- The twenty output blocks tile the output array: row r lies in block r / 5000. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 5000 < cfg3.N := lt_of_lt_of_eq (by omega : (i 0).val / 5000 < 20) N_3.symm
  obtain ⟨-, -, -, -, -, -, -, -, -, -, -, -, e0, e1⟩ := idx_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]; omega

/-- THE OUTPUT ARRAY AFTER THE REGION is the layer of the arrays the region was entered with. -/
theorem final (c : Dev nD) : (dat3 V c).arrAt 6 cfg3.N = result V c :=
  (dat3 V c).arrAt_eq_of_cover 6 (result V c) (fun t _ => flushed_eq V c t) cover

end Cert.KernelIdeal.Region3

end
-- ==== Proof.KernelChain.lean ====
/-
  The kernel program's result is the network of its arguments.

  Followed boundary by boundary. Before region l the stretch of whole-array operations has put, in the region's seven
  arrays: the neighbour sums of the current node features, the scale column, the current node features, the two
  transposed weight slices and the bias as a row — each the corresponding operation of Stages applied to the launch
  contents of the arguments and to the previous region's output. The region leaves in its output array the layer of
  those (Region l), which is layer l of the current features; every other buffer the next stretch reads (the edge
  list's two rows, the scale column, the weight and bias stacks) is as it was, since no operation and no region
  writes it. After the fourth region the result buffer holds the network.
-/
import proofs.«181015_j31756988186713_2_alg».proof.Proof.Gen.KernelIdeal.Frame
import proofs.«181015_j31756988186713_2_alg».proof.Proof.Stages
import proofs.«181015_j31756988186713_2_alg».proof.Proof.Region0
import proofs.«181015_j31756988186713_2_alg».proof.Proof.Region1
import proofs.«181015_j31756988186713_2_alg».proof.Proof.Region2
import proofs.«181015_j31756988186713_2_alg».proof.Proof.Region3
import Idealize.ShloMosaic.Lib.StableHlo.Run
import Idealize.ShloMosaic.Lib.ValueLayout

set_option maxRecDepth 16384

noncomputable section

namespace Cert.KernelIdeal.Chain

open Cert.KernelIdeal Cert.KernelIdeal.Gen Cert.Sage
open Idealize.ShloMosaic Idealize.ShloMosaic.TcCoe Idealize.ShloMosaic.ValueIdx Idealize.SL.Sem Idealize.ShloMosaic.StableHlo

/-- Arrays equal to a layer's operands give the layer; the bias row is the bias vector laid out as one row. -/
theorem layer_of {A X : Nodes} {S : (⟨S100000x1, .f32⟩ : BufTy).Contents (Elt Ideal)}
    {Wl Wr : (⟨S128x128, .f32⟩ : BufTy).Contents (Elt Ideal)} {B : (⟨S1x128, .f32⟩ : BufTy).Contents (Elt Ideal)}
    {e : EdgeList} {x : Nodes} {wl wr : (⟨S128x128, .f32⟩ : BufTy).Contents (Elt Ideal)}
    {bv : (⟨S128, .f32⟩ : BufTy).Contents (Elt Ideal)}
    (hA : A = agg e x) (hX : X = x) (hS : S = invDeg e) (hWl : Wl = wl) (hWr : Wr = wr)
    (hB : B = shapeCast S1x128 bv shapeCasts_S128_S1x128) :
    layer (n := 100000) A X S Wl Wr (fun q => B (ix2 (0 : Fin 1) q))
      = layer (n := 100000) (agg e x) x (invDeg e) wl wr (fun q => bv (ix1 q)) := by
  subst hA hX hS hWl hWr hB
  refine congrArg (layer (n := 100000) _ _ _ _ _) (funext fun q => ?_)
  exact shapeCast_a_1a_apply bv shapeCasts_S128_S1x128 (0 : Fin 1) q

variable (m : (ℓ : Loc nD τ sig) → Buf (Elt Ideal) ℓ) (ρ : Dev nD → PrngReg) (c : Dev nD)

/-! ## Before region 0 -/

theorem at1_src : W1 m ρ c (Proc.devRef .tc main_v1) = src (m ((c : Thread nD τ).loc main_arg1)) := by
  show StableHlo.after hostOps0 (W0 m ρ c) (Proc.devRef .tc main_v1) = _
  dsimp only [hostOps0]
  after_results_simp
  unfold src
  rfl
theorem at1_dst : W1 m ρ c (Proc.devRef .tc main_v3) = dst (m ((c : Thread nD τ).loc main_arg1)) := by
  show StableHlo.after hostOps0 (W0 m ρ c) (Proc.devRef .tc main_v3) = _
  dsimp only [hostOps0]
  after_results_simp
  unfold dst
  rfl
theorem at1_inv : W1 m ρ c (Proc.devRef .tc main_v12) = invDeg (m ((c : Thread nD τ).loc main_arg1)) := by
  show StableHlo.after hostOps0 (W0 m ρ c) (Proc.devRef .tc main_v12) = _
  dsimp only [hostOps0]
  after_results_simp
  unfold invDeg dstCol dst
  rfl
theorem at1_agg : W1 m ρ c (Proc.devRef .tc main_v22) = agg (m ((c : Thread nD τ).loc main_arg1)) (m ((c : Thread nD τ).loc main_arg0)) := by
  show StableHlo.after hostOps0 (W0 m ρ c) (Proc.devRef .tc main_v22) = _
  dsimp only [hostOps0]
  after_results_simp
  unfold agg dstCol srcCol src dst
  rfl
theorem at1_x : W1 m ρ c (Proc.devRef .tc main_arg0) = (m ((c : Thread nD τ).loc main_arg0)) := by
  show StableHlo.after hostOps0 (W0 m ρ c) (Proc.devRef .tc main_arg0) = _
  dsimp only [hostOps0]
  after_results_simp
theorem at1_wl : W1 m ρ c (Proc.devRef .tc main_v25) = wT0 (m ((c : Thread nD τ).loc main_arg2)) := by
  show StableHlo.after hostOps0 (W0 m ρ c) (Proc.devRef .tc main_v25) = _
  dsimp only [hostOps0]
  after_results_simp
  unfold wT0
  rfl
theorem at1_wr : W1 m ρ c (Proc.devRef .tc main_v28) = wT0 (m ((c : Thread nD τ).loc main_arg4)) := by
  show StableHlo.after hostOps0 (W0 m ρ c) (Proc.devRef .tc main_v28) = _
  dsimp only [hostOps0]
  after_results_simp
  unfold wT0
  rfl
theorem at1_b : W1 m ρ c (Proc.devRef .tc main_v31) = shapeCast S1x128 (bvec0 (m ((c : Thread nD τ).loc main_arg3))) shapeCasts_S128_S1x128 := by
  show StableHlo.after hostOps0 (W0 m ρ c) (Proc.devRef .tc main_v31) = _
  dsimp only [hostOps0]
  after_results_simp
  unfold bvec0
  rfl
theorem at1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp
theorem at1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp
theorem at1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp

/-! ## After region 0 -/

theorem at2_out : W2 m ρ c (Proc.devRef .tc main_v32) = step0 (m ((c : Thread nD τ).loc main_arg1)) (m ((c : Thread nD τ).loc main_arg2)) (m ((c : Thread nD τ).loc main_arg3)) (m ((c : Thread nD τ).loc main_arg4)) (m ((c : Thread nD τ).loc main_arg0)) :=
  (W2_arr m ρ c 6).trans ((Region0.final (V1 m ρ) c).trans
    (layer_of (at1_agg m ρ c) (at1_x m ρ c) (at1_inv m ρ c) (at1_wl m ρ c) (at1_wr m ρ c) (at1_b m ρ c)))
theorem at2_inv : W2 m ρ c (Proc.devRef .tc main_v12) = invDeg (m ((c : Thread nD τ).loc main_arg1)) :=
  ((W2_arr m ρ c 1).trans (((dat0 (V1 m ρ) c).arrAt_in 1 rfl _).trans (A_eq0 (V1 m ρ) c 1))).trans (at1_inv m ρ c)
theorem at2_src : W2 m ρ c (Proc.devRef .tc main_v1) = src (m ((c : Thread nD τ).loc main_arg1)) :=
  (W2_of_ne m ρ c main_v1 (by decide)).trans (at1_src m ρ c)
theorem at2_dst : W2 m ρ c (Proc.devRef .tc main_v3) = dst (m ((c : Thread nD τ).loc main_arg1)) :=
  (W2_of_ne m ρ c main_v3 (by decide)).trans (at1_dst m ρ c)
theorem at2_arg2 : W2 m ρ c (Proc.devRef .tc main_arg2) = (m ((c : Thread nD τ).loc main_arg2)) :=
  (W2_of_ne m ρ c main_arg2 (by decide)).trans (at1_arg2 m ρ c)
theorem at2_arg3 : W2 m ρ c (Proc.devRef .tc main_arg3) = (m ((c : Thread nD τ).loc main_arg3)) :=
  (W2_of_ne m ρ c main_arg3 (by decide)).trans (at1_arg3 m ρ c)
theorem at2_arg4 : W2 m ρ c (Proc.devRef .tc main_arg4) = (m ((c : Thread nD τ).loc main_arg4)) :=
  (W2_of_ne m ρ c main_arg4 (by decide)).trans (at1_arg4 m ρ c)

/-! ## Before region 1 -/

theorem at3_src : W3 m ρ c (Proc.devRef .tc main_v1) = src (m ((c : Thread nD τ).loc main_arg1)) := by
  show StableHlo.after hostOps1 (W2 m ρ c) (Proc.devRef .tc main_v1) = _
  dsimp only [hostOps1]
  after_results_simp
  rw [at2_src m ρ c]
theorem at3_dst : W3 m ρ c (Proc.devRef .tc main_v3) = dst (m ((c : Thread nD τ).loc main_arg1)) := by
  show StableHlo.after hostOps1 (W2 m ρ c) (Proc.devRef .tc main_v3) = _
  dsimp only [hostOps1]
  after_results_simp
  rw [at2_dst m ρ c]
theorem at3_inv : W3 m ρ c (Proc.devRef .tc main_v12) = invDeg (m ((c : Thread nD τ).loc main_arg1)) := by
  show StableHlo.after hostOps1 (W2 m ρ c) (Proc.devRef .tc main_v12) = _
  dsimp only [hostOps1]
  after_results_simp
  rw [at2_inv m ρ c]
theorem at3_x : W3 m ρ c (Proc.devRef .tc main_v32) = step0 (m ((c : Thread nD τ).loc main_arg1)) (m ((c : Thread nD τ).loc main_arg2)) (m ((c : Thread nD τ).loc main_arg3)) (m ((c : Thread nD τ).loc main_arg4)) (m ((c : Thread nD τ).loc main_arg0)) := by
  show StableHlo.after hostOps1 (W2 m ρ c) (Proc.devRef .tc main_v32) = _
  dsimp only [hostOps1]
  after_results_simp
  rw [at2_out m ρ c]
theorem at3_agg : W3 m ρ c (Proc.devRef .tc main_v42) = agg (m ((c : Thread nD τ).loc main_arg1)) (step0 (m ((c : Thread nD τ).loc main_arg1)) (m ((c : Thread nD τ).loc main_arg2)) (m ((c : Thread nD τ).loc main_arg3)) (m ((c : Thread nD τ).loc main_arg4)) (m ((c : Thread nD τ).loc main_arg0))) := by
  show StableHlo.after hostOps1 (W2 m ρ c) (Proc.devRef .tc main_v42) = _
  dsimp only [hostOps1]
  after_results_simp
  rw [at2_out m ρ c, at2_dst m ρ c, at2_src m ρ c]
  unfold agg dstCol srcCol
  rfl
theorem at3_wl : W3 m ρ c (Proc.devRef .tc main_v45) = wT1 (m ((c : Thread nD τ).loc main_arg2)) := by
  show StableHlo.after hostOps1 (W2 m ρ c) (Proc.devRef .tc main_v45) = _
  dsimp only [hostOps1]
  after_results_simp
  rw [at2_arg2 m ρ c]
  unfold wT1
  rfl
theorem at3_wr : W3 m ρ c (Proc.devRef .tc main_v48) = wT1 (m ((c : Thread nD τ).loc main_arg4)) := by
  show StableHlo.after hostOps1 (W2 m ρ c) (Proc.devRef .tc main_v48) = _
  dsimp only [hostOps1]
  after_results_simp
  rw [at2_arg4 m ρ c]
  unfold wT1
  rfl
theorem at3_b : W3 m ρ c (Proc.devRef .tc main_v51) = shapeCast S1x128 (bvec1 (m ((c : Thread nD τ).loc main_arg3))) shapeCasts_S128_S1x128 := by
  show StableHlo.after hostOps1 (W2 m ρ c) (Proc.devRef .tc main_v51) = _
  dsimp only [hostOps1]
  after_results_simp
  rw [at2_arg3 m ρ c]
  unfold bvec1
  rfl
theorem at3_arg2 : W3 m ρ c (Proc.devRef .tc main_arg2) = (m ((c : Thread nD τ).loc main_arg2)) := by
  show StableHlo.after hostOps1 (W2 m ρ c) (Proc.devRef .tc main_arg2) = _
  dsimp only [hostOps1]
  after_results_simp
  rw [at2_arg2 m ρ c]
theorem at3_arg3 : W3 m ρ c (Proc.devRef .tc main_arg3) = (m ((c : Thread nD τ).loc main_arg3)) := by
  show StableHlo.after hostOps1 (W2 m ρ c) (Proc.devRef .tc main_arg3) = _
  dsimp only [hostOps1]
  after_results_simp
  rw [at2_arg3 m ρ c]
theorem at3_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  rw [at2_arg4 m ρ c]

/-! ## After region 1 -/

theorem at4_out : W4 m ρ c (Proc.devRef .tc main_v52) = step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0))) :=
  (W4_arr m ρ c 6).trans ((Region1.final (V3 m ρ) c).trans
    (layer_of (at3_agg m ρ c) (at3_x m ρ c) (at3_inv m ρ c) (at3_wl m ρ c) (at3_wr m ρ c) (at3_b m ρ c)))
theorem at4_inv : W4 m ρ c (Proc.devRef .tc main_v12) = invDeg (m ((c : Thread nD τ).loc main_arg1)) :=
  ((W4_arr m ρ c 1).trans (((dat1 (V3 m ρ) c).arrAt_in 1 rfl _).trans (A_eq1 (V3 m ρ) c 1))).trans (at3_inv m ρ c)
theorem at4_src : W4 m ρ c (Proc.devRef .tc main_v1) = src (m ((c : Thread nD τ).loc main_arg1)) :=
  (W4_of_ne m ρ c main_v1 (by decide)).trans (at3_src m ρ c)
theorem at4_dst : W4 m ρ c (Proc.devRef .tc main_v3) = dst (m ((c : Thread nD τ).loc main_arg1)) :=
  (W4_of_ne m ρ c main_v3 (by decide)).trans (at3_dst m ρ c)
theorem at4_arg2 : W4 m ρ c (Proc.devRef .tc main_arg2) = (m ((c : Thread nD τ).loc main_arg2)) :=
  (W4_of_ne m ρ c main_arg2 (by decide)).trans (at3_arg2 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)

/-! ## Before region 2 -/

theorem at5_src : W5 m ρ c (Proc.devRef .tc main_v1) = src (m ((c : Thread nD τ).loc main_arg1)) := by
  show StableHlo.after hostOps2 (W4 m ρ c) (Proc.devRef .tc main_v1) = _
  dsimp only [hostOps2]
  after_results_simp
  rw [at4_src m ρ c]
theorem at5_dst : W5 m ρ c (Proc.devRef .tc main_v3) = dst (m ((c : Thread nD τ).loc main_arg1)) := by
  show StableHlo.after hostOps2 (W4 m ρ c) (Proc.devRef .tc main_v3) = _
  dsimp only [hostOps2]
  after_results_simp
  rw [at4_dst m ρ c]
theorem at5_inv : W5 m ρ c (Proc.devRef .tc main_v12) = invDeg (m ((c : Thread nD τ).loc main_arg1)) := by
  show StableHlo.after hostOps2 (W4 m ρ c) (Proc.devRef .tc main_v12) = _
  dsimp only [hostOps2]
  after_results_simp
  rw [at4_inv m ρ c]
theorem at5_x : W5 m ρ c (Proc.devRef .tc main_v52) = step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0))) := by
  show StableHlo.after hostOps2 (W4 m ρ c) (Proc.devRef .tc main_v52) = _
  dsimp only [hostOps2]
  after_results_simp
  rw [at4_out m ρ c]
theorem at5_agg : W5 m ρ c (Proc.devRef .tc main_v62) = agg (m ((c : Thread nD τ).loc main_arg1)) (step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0)))) := by
  show StableHlo.after hostOps2 (W4 m ρ c) (Proc.devRef .tc main_v62) = _
  dsimp only [hostOps2]
  after_results_simp
  rw [at4_out m ρ c, at4_dst m ρ c, at4_src m ρ c]
  unfold agg dstCol srcCol
  rfl
theorem at5_wl : W5 m ρ c (Proc.devRef .tc main_v65) = wT2 (m ((c : Thread nD τ).loc main_arg2)) := by
  show StableHlo.after hostOps2 (W4 m ρ c) (Proc.devRef .tc main_v65) = _
  dsimp only [hostOps2]
  after_results_simp
  rw [at4_arg2 m ρ c]
  unfold wT2
  rfl
theorem at5_wr : W5 m ρ c (Proc.devRef .tc main_v68) = wT2 (m ((c : Thread nD τ).loc main_arg4)) := by
  show StableHlo.after hostOps2 (W4 m ρ c) (Proc.devRef .tc main_v68) = _
  dsimp only [hostOps2]
  after_results_simp
  rw [at4_arg4 m ρ c]
  unfold wT2
  rfl
theorem at5_b : W5 m ρ c (Proc.devRef .tc main_v71) = shapeCast S1x128 (bvec2 (m ((c : Thread nD τ).loc main_arg3))) shapeCasts_S128_S1x128 := by
  show StableHlo.after hostOps2 (W4 m ρ c) (Proc.devRef .tc main_v71) = _
  dsimp only [hostOps2]
  after_results_simp
  rw [at4_arg3 m ρ c]
  unfold bvec2
  rfl
theorem at5_arg2 : W5 m ρ c (Proc.devRef .tc main_arg2) = (m ((c : Thread nD τ).loc main_arg2)) := by
  show StableHlo.after hostOps2 (W4 m ρ c) (Proc.devRef .tc main_arg2) = _
  dsimp only [hostOps2]
  after_results_simp
  rw [at4_arg2 m ρ c]
theorem at5_arg3 : W5 m ρ c (Proc.devRef .tc main_arg3) = (m ((c : Thread nD τ).loc main_arg3)) := by
  show StableHlo.after hostOps2 (W4 m ρ c) (Proc.devRef .tc main_arg3) = _
  dsimp only [hostOps2]
  after_results_simp
  rw [at4_arg3 m ρ c]
theorem at5_arg4 : W5 m ρ c (Proc.devRef .tc main_arg4) = (m ((c : Thread nD τ).loc main_arg4)) := by
  show StableHlo.after hostOps2 (W4 m ρ c) (Proc.devRef .tc main_arg4) = _
  dsimp only [hostOps2]
  after_results_simp
  rw [at4_arg4 m ρ c]

/-! ## After region 2 -/

theorem at6_out : W6 m ρ c (Proc.devRef .tc main_v72) = step2 (m ((c : Thread nD τ).loc main_arg1)) (m ((c : Thread nD τ).loc main_arg2)) (m ((c : Thread nD τ).loc main_arg3)) (m ((c : Thread nD τ).loc main_arg4)) (step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0)))) :=
  (W6_arr m ρ c 6).trans ((Region2.final (V5 m ρ) c).trans
    (layer_of (at5_agg m ρ c) (at5_x m ρ c) (at5_inv m ρ c) (at5_wl m ρ c) (at5_wr m ρ c) (at5_b m ρ c)))
theorem at6_inv : W6 m ρ c (Proc.devRef .tc main_v12) = invDeg (m ((c : Thread nD τ).loc main_arg1)) :=
  ((W6_arr m ρ c 1).trans (((dat2 (V5 m ρ) c).arrAt_in 1 rfl _).trans (A_eq2 (V5 m ρ) c 1))).trans (at5_inv m ρ c)
theorem at6_src : W6 m ρ c (Proc.devRef .tc main_v1) = src (m ((c : Thread nD τ).loc main_arg1)) :=
  (W6_of_ne m ρ c main_v1 (by decide)).trans (at5_src m ρ c)
theorem at6_dst : W6 m ρ c (Proc.devRef .tc main_v3) = dst (m ((c : Thread nD τ).loc main_arg1)) :=
  (W6_of_ne m ρ c main_v3 (by decide)).trans (at5_dst m ρ c)
theorem at6_arg2 : W6 m ρ c (Proc.devRef .tc main_arg2) = (m ((c : Thread nD τ).loc main_arg2)) :=
  (W6_of_ne m ρ c main_arg2 (by decide)).trans (at5_arg2 m ρ c)
theorem at6_arg3 : W6 m ρ c (Proc.devRef .tc main_arg3) = (m ((c : Thread nD τ).loc main_arg3)) :=
  (W6_of_ne m ρ c main_arg3 (by decide)).trans (at5_arg3 m ρ c)
theorem at6_arg4 : W6 m ρ c (Proc.devRef .tc main_arg4) = (m ((c : Thread nD τ).loc main_arg4)) :=
  (W6_of_ne m ρ c main_arg4 (by decide)).trans (at5_arg4 m ρ c)

/-! ## Before region 3 -/

theorem at7_src : W7 m ρ c (Proc.devRef .tc main_v1) = src (m ((c : Thread nD τ).loc main_arg1)) := by
  show StableHlo.after hostOps3 (W6 m ρ c) (Proc.devRef .tc main_v1) = _
  dsimp only [hostOps3]
  after_results_simp
  rw [at6_src m ρ c]
theorem at7_dst : W7 m ρ c (Proc.devRef .tc main_v3) = dst (m ((c : Thread nD τ).loc main_arg1)) := by
  show StableHlo.after hostOps3 (W6 m ρ c) (Proc.devRef .tc main_v3) = _
  dsimp only [hostOps3]
  after_results_simp
  rw [at6_dst m ρ c]
theorem at7_inv : W7 m ρ c (Proc.devRef .tc main_v12) = invDeg (m ((c : Thread nD τ).loc main_arg1)) := by
  show StableHlo.after hostOps3 (W6 m ρ c) (Proc.devRef .tc main_v12) = _
  dsimp only [hostOps3]
  after_results_simp
  rw [at6_inv m ρ c]
theorem at7_x : W7 m ρ c (Proc.devRef .tc main_v72) = step2 (m ((c : Thread nD τ).loc main_arg1)) (m ((c : Thread nD τ).loc main_arg2)) (m ((c : Thread nD τ).loc main_arg3)) (m ((c : Thread nD τ).loc main_arg4)) (step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0)))) := by
  show StableHlo.after hostOps3 (W6 m ρ c) (Proc.devRef .tc main_v72) = _
  dsimp only [hostOps3]
  after_results_simp
  rw [at6_out m ρ c]
theorem at7_agg : W7 m ρ c (Proc.devRef .tc main_v82) = agg (m ((c : Thread nD τ).loc main_arg1)) (step2 (m ((c : Thread nD τ).loc main_arg1)) (m ((c : Thread nD τ).loc main_arg2)) (m ((c : Thread nD τ).loc main_arg3)) (m ((c : Thread nD τ).loc main_arg4)) (step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0))))) := by
  show StableHlo.after hostOps3 (W6 m ρ c) (Proc.devRef .tc main_v82) = _
  dsimp only [hostOps3]
  after_results_simp
  rw [at6_out m ρ c, at6_dst m ρ c, at6_src m ρ c]
  unfold agg dstCol srcCol
  rfl
theorem at7_wl : W7 m ρ c (Proc.devRef .tc main_v85) = wT3 (m ((c : Thread nD τ).loc main_arg2)) := by
  show StableHlo.after hostOps3 (W6 m ρ c) (Proc.devRef .tc main_v85) = _
  dsimp only [hostOps3]
  after_results_simp
  rw [at6_arg2 m ρ c]
  unfold wT3
  rfl
theorem at7_wr : W7 m ρ c (Proc.devRef .tc main_v88) = wT3 (m ((c : Thread nD τ).loc main_arg4)) := by
  show StableHlo.after hostOps3 (W6 m ρ c) (Proc.devRef .tc main_v88) = _
  dsimp only [hostOps3]
  after_results_simp
  rw [at6_arg4 m ρ c]
  unfold wT3
  rfl
theorem at7_b : W7 m ρ c (Proc.devRef .tc main_v91) = shapeCast S1x128 (bvec3 (m ((c : Thread nD τ).loc main_arg3))) shapeCasts_S128_S1x128 := by
  show StableHlo.after hostOps3 (W6 m ρ c) (Proc.devRef .tc main_v91) = _
  dsimp only [hostOps3]
  after_results_simp
  rw [at6_arg3 m ρ c]
  unfold bvec3
  rfl

/-! ## After region 3 -/

theorem at8_out : W8 m ρ c (Proc.devRef .tc main_v92) = step3 (m ((c : Thread nD τ).loc main_arg1)) (m ((c : Thread nD τ).loc main_arg2)) (m ((c : Thread nD τ).loc main_arg3)) (m ((c : Thread nD τ).loc main_arg4)) (step2 (m ((c : Thread nD τ).loc main_arg1)) (m ((c : Thread nD τ).loc main_arg2)) (m ((c : Thread nD τ).loc main_arg3)) (m ((c : Thread nD τ).loc main_arg4)) (step1 (m ((c : Thread nD τ).loc main_arg1)) (m ((c : Thread nD τ).loc main_arg2)) (m ((c : Thread nD τ).loc main_arg3)) (m ((c : Thread nD τ).loc main_arg4)) (step0 (m ((c : Thread nD τ).loc main_arg1)) (m ((c : Thread nD τ).loc main_arg2)) (m ((c : Thread nD τ).loc main_arg3)) (m ((c : Thread nD τ).loc main_arg4)) (m ((c : Thread nD τ).loc main_arg0))))) :=
  (W8_arr m ρ c 6).trans ((Region3.final (V7 m ρ) c).trans
    (layer_of (at7_agg m ρ c) (at7_x m ρ c) (at7_inv m ρ c) (at7_wl m ρ c) (at7_wr m ρ c) (at7_b m ρ c)))

/-- THE RESULT BUFFER at the last boundary holds the network of the launch contents of the arguments. -/
theorem result_eq : W8 m ρ c (Proc.devRef .tc main_v92)
    = network (m ((c : Thread nD τ).loc main_arg0)) (m ((c : Thread nD τ).loc main_arg1)) (m ((c : Thread nD τ).loc main_arg2)) (m ((c : Thread nD τ).loc main_arg3)) (m ((c : Thread nD τ).loc main_arg4)) :=
  at8_out m ρ c

end Cert.KernelIdeal.Chain

end
-- ==== Proof.RefChain.lean ====
/-
  The reference program's result is the network of its arguments.

  The reference is a straight line of whole-array operations; its run gives the result as the composed term of the
  arguments, one stage per operation. Each layer's last stage — the clamp at zero of the first product plus the spread
  bias plus the second product — is, operation for operation, the whole-array spelling of the layer (LayerSpec) applied
  to the neighbour sums, the scale column, the weight slices and the bias that Stages names, at the previous layer's
  output. So the fourth layer's last stage is the network.
-/
import proofs.«181015_j31756988186713_2_alg».proof.Proof.Gen.ReferenceIdeal.Run
import proofs.«181015_j31756988186713_2_alg».proof.Proof.Gen.ReferenceIdeal.Read
import proofs.«181015_j31756988186713_2_alg».proof.Proof.Stages

set_option maxRecDepth 16384

noncomputable section

namespace Cert.ReferenceIdeal.Chain

open Cert.ReferenceIdeal Cert.ReferenceIdeal.Gen Cert.ReferenceIdeal.Read Cert.Sage
open Idealize.ShloMosaic Idealize.ShloMosaic.TcCoe Idealize.ShloMosaic.ValueIdx Idealize.SL.Sem

variable (x0 : (⟨S100000x128, .f32⟩ : BufTy).Contents (Elt Ideal)) (x1 : (⟨S2x1600000, .i32⟩ : BufTy).Contents (Elt Ideal))
  (x2 : (⟨S4x128x128, .f32⟩ : BufTy).Contents (Elt Ideal)) (x3 : (⟨S4x128, .f32⟩ : BufTy).Contents (Elt Ideal))
  (x4 : (⟨S4x128x128, .f32⟩ : BufTy).Contents (Elt Ideal))

/-- The host's operations of one layer on given node features are the layer of Stages' operands. -/
theorem host_layer (X : FVec Ideal S100000x128 .f32) (e : EdgeList) (wl wr : FVec Ideal S128x128 .f32)
    (bv : FVec Ideal S128 .f32) :
    maximumf
        (addf
          (addf
            (Host.dotGeneral (φ₁ := .f32) (φ₂ := .f32) dot_S100000x128_S128x128_S100000x128_1_0_0_1_n_n none
              (mulf (φ := .f32) (agg e X : FVec Ideal S100000x128 .f32) (broadcastInDim S100000x128 ![0, 1] bcast_S100000x1_S100000x128_0_1 (invDeg e : FVec Ideal S100000x1 .f32))) wl)
            (broadcastInDim S100000x128 ![0, 1] bcast_S1x128_S100000x128_0_1 (broadcastInDim S1x128 ![1] bcast_S128_S1x128_1 bv)))
          (Host.dotGeneral (φ₁ := .f32) (φ₂ := .f32) dot_S100000x128_S128x128_S100000x128_1_0_0_1_n_n none X wr))
        (broadcastInDim S100000x128 ![] bcast_S_S100000x128 (constant (F := Ideal) S_ .f32 0x00000000#32))
      = layer (n := 100000) (agg e X) X (invDeg e) wl wr (fun q => bv (ix1 q)) :=
  whole_eq (n := 100000) dot_S100000x128_S128x128_S100000x128_1_0_0_1_n_n_wf dot_S100000x128_S128x128_S100000x128_1_0_0_1_n_n rfl
    bcast_S100000x1_S100000x128_0_1 bcast_S128_S1x128_1 bcast_S1x128_S100000x128_0_1 bcast_S_S100000x128 (agg e X) X (invDeg e) wl wr bv

/-- Layer 0's last stage is layer 0 of the stage before it. -/
theorem stage0 : val_main_v39 (F := Ideal) x0 x1 x2 x3 x4 = step0 x1 x2 x3 x4 x0 :=
  (show val_main_v39 (F := Ideal) x0 x1 x2 x3 x4 = _ from rfl).trans (host_layer x0 x1 (wT0 x2) (wT0 x4) (bvec0 x3))

/-- Layer 1's last stage is layer 1 of the stage before it. -/
theorem stage1 : val_main_v66 (F := Ideal) x0 x1 x2 x3 x4 = step1 x1 x2 x3 x4 (val_main_v39 (F := Ideal) x0 x1 x2 x3 x4) :=
  (show val_main_v66 (F := Ideal) x0 x1 x2 x3 x4 = _ from rfl).trans (host_layer (val_main_v39 (F := Ideal) x0 x1 x2 x3 x4) x1 (wT1 x2) (wT1 x4) (bvec1 x3))

/-- Layer 2's last stage is layer 2 of the stage before it. -/
theorem stage2 : val_main_v93 (F := Ideal) x0 x1 x2 x3 x4 = step2 x1 x2 x3 x4 (val_main_v66 (F := Ideal) x0 x1 x2 x3 x4) :=
  (show val_main_v93 (F := Ideal) x0 x1 x2 x3 x4 = _ from rfl).trans (host_layer (val_main_v66 (F := Ideal) x0 x1 x2 x3 x4) x1 (wT2 x2) (wT2 x4) (bvec2 x3))

/-- Layer 3's last stage is layer 3 of the stage before it. -/
theorem stage3 : val_main_v120 (F := Ideal) x0 x1 x2 x3 x4 = step3 x1 x2 x3 x4 (val_main_v93 (F := Ideal) x0 x1 x2 x3 x4) :=
  (show val_main_v120 (F := Ideal) x0 x1 x2 x3 x4 = _ from rfl).trans (host_layer (val_main_v93 (F := Ideal) x0 x1 x2 x3 x4) x1 (wT3 x2) (wT3 x4) (bvec3 x3))

/-- The last stage is the network. -/
theorem last_stage : val_main_v120 (F := Ideal) x0 x1 x2 x3 x4 = network x0 x1 x2 x3 x4 := by
  rw [stage3, stage2, stage1, stage0]
  rfl

/-- THE RESULT the reference's run states is the network of the launch contents of the arguments. -/
theorem result_eq (m : (ℓ : Loc nD τ sig) → Buf (Elt Ideal) ℓ) (c : Dev nD) :
    Cert.ReferenceIdeal.Value.res_main_v120 m c
      = network (m ((c : Thread nD τ).loc main_arg0)) (m ((c : Thread nD τ).loc main_arg1)) (m ((c : Thread nD τ).loc main_arg2))
          (m ((c : Thread nD τ).loc main_arg3)) (m ((c : Thread nD τ).loc main_arg4)) :=
  (val_main_v120_eq m c).trans (last_stage _ _ _ _ _)

end Cert.ReferenceIdeal.Chain

end
-- ==== Proof.lean ====
/-
  The certificate of a four-layer neighbourhood-averaging graph network: its tiled kernel program against its
  whole-array reference, over the extended reals.

  Both programs compute, layer after layer, for every node p and output feature q,
      max ( sum over k of (A(p,k) * s(p)) * Wl(q,k)  +  sum over k of X(p,k) * Wr(q,k)  +  b(q) , 0 )
  where X are the current node features, A(p,·) the sum of X over the sources of the edges arriving at p, and
  s(p) = 1 / max(degree of p, 1). The gathers and scatters that form A and the degree are the same whole-array
  operations on the same operands in both programs. The kernel program takes the scaling, the two products, the bias and
  the clamp inside a tiled region over blocks of 5000 nodes, adding the bias last; the reference adds the bias before
  the second product. Addition of extended reals is commutative and associative, so the two agree entry by entry
  (LayerSpec), whatever the inputs: the precondition is not used.

  The three frame claims are the generated ones (the reference's is its generated run with the result dropped); the
  idealization rewrote nothing, so that claim is trivial; the value claim joins the kernel program's run, read
  boundary by boundary (KernelRun, Region0 … Region3, KernelChain), with the reference's generated run read stage by
  stage (RefChain), both at the network of Stages.
-/
import proofs.«181015_j31756988186713_2_alg».proof.Defs
import proofs.«181015_j31756988186713_2_alg».proof.Proof.Gen.Kernel
import proofs.«181015_j31756988186713_2_alg».proof.Proof.Gen.Kernel.Skeleton
import proofs.«181015_j31756988186713_2_alg».proof.Proof.Gen.Kernel.Launch
import proofs.«181015_j31756988186713_2_alg».proof.Proof.Gen.Kernel.Points
import proofs.«181015_j31756988186713_2_alg».proof.Proof.Gen.Kernel.Frame
import proofs.«181015_j31756988186713_2_alg».proof.Proof.Gen.KernelIdeal
import proofs.«181015_j31756988186713_2_alg».proof.Proof.Gen.KernelIdeal.Skeleton
import proofs.«181015_j31756988186713_2_alg».proof.Proof.Gen.KernelIdeal.Launch
import proofs.«181015_j31756988186713_2_alg».proof.Proof.Gen.KernelIdeal.Points
import proofs.«181015_j31756988186713_2_alg».proof.Proof.Gen.KernelIdeal.Frame
import proofs.«181015_j31756988186713_2_alg».proof.Proof.Gen.ReferenceIdeal
import proofs.«181015_j31756988186713_2_alg».proof.Proof.Gen.ReferenceIdeal.Run
import proofs.«181015_j31756988186713_2_alg».proof.Proof.Gen.Pre_finite_inputs
import proofs.«181015_j31756988186713_2_alg».proof.Proof.KernelRun
import proofs.«181015_j31756988186713_2_alg».proof.Proof.KernelChain
import proofs.«181015_j31756988186713_2_alg».proof.Proof.RefChain
import Idealize.ShloMosaic.Adequacy
import Idealize.ShloMosaic.Init

noncomputable section

namespace Cert.Proof

open Idealize.ShloMosaic Idealize.ShloMosaic.TcCoe Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run with its result at the network of the launch contents of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v92)
          = network (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨(h c).1.trans (Cert.KernelIdeal.Chain.result_eq m ρ c), (h c).2⟩)
    (Cert.KernelIdeal.Whole.run (F := Ideal) m ρ)

/-- From memories agreeing on the arguments both programs end with the network of those arguments in their result. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Chain.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
